-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S16x2048x1024 : Shape := ⟨3, ![16, 2048, 1024]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn {F : FTy → Type} [FloatOps F] (main_arg0 : FVec F S16x512 .f32) (main_arg1 : FVec F S16x512 .f32) (main_arg2 : FVec F S16x2048x1024 .f32) : IVec S_ 1 :=
  let main_v0 : FVec F S16x512 .f32 := Host.absf main_arg0
  let main_cst : FVec F S_ .f32 := constant S_ .f32 0x7F800000#32
  let main_v1 : FVec F S16x512 .f32 := broadcastInDim S16x512 ![] bcast_S_S16x512 main_cst
  let main_v2 : IVec S16x512 1 := cmpf .olt main_v0 main_v1
  let main_c : IVec S_ 1 := constantI S_ 1 1#1
  let main_v3 : IVec S_ 1 := (fun x v => Host.reduce IntOp.andi x v reducesTo_S16x512_S_d0_1 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x2048x1024 .f32 := Host.absf main_arg2
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  main_v13
-- ==== Kernel.lean ====
abbrev S16x512 : Shape := ⟨2, ![16, 512]⟩
abbrev S16x2048x1024 : Shape := ⟨3, ![16, 2048, 1024]⟩
abbrev S16x1024 : Shape := ⟨2, ![16, 1024]⟩
abbrev S16x1x1024 : Shape := ⟨3, ![16, 1, 1024]⟩
abbrev S16x2048x3072 : Shape := ⟨3, ![16, 2048, 3072]⟩
abbrev S1x2048x1024 : Shape := ⟨3, ![1, 2048, 1024]⟩
abbrev S1x1x1024 : Shape := ⟨3, ![1, 1, 1024]⟩
abbrev S1x512x3072 : Shape := ⟨3, ![1, 512, 3072]⟩
abbrev S1x1024 : Shape := ⟨2, ![1, 1024]⟩
abbrev S1x512x1024 : Shape := ⟨3, ![1, 512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x2048x1024, .f32⟩
  | .hbm, ⟨3, _⟩ => ⟨S16x1024, .f32⟩
  | .hbm, ⟨4, _⟩ => ⟨S16x1x1024, .f32⟩
  | .hbm, ⟨5, _⟩ => ⟨S16x2048x3072, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x3072, .f32⟩
  | .local _ .vmem, ⟨5, _⟩ => ⟨S1x512x3072, .f32⟩
  | .local _ .vmem, ⟨6, _⟩ => ⟨S1x1x1024, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  concatenates_S16x512_S16x512_S16x1024_d1 : Shape.Concatenates [S16x512, S16x512] S16x1024 1
  bcast_S16x1024_S16x1x1024_0_2 : S16x1024.BroadcastsInDim S16x1x1024 (![0, 2] : Fin 2 → Fin S16x1x1024.rank)
  inb_S1x2048x1024_S1x2048x1024_0_0_0 : ∀ a, (![0, 0, 0] : Fin 3 → Nat) a + S1x2048x1024.size a ≤ S1x2048x1024.size a
  h_S1x2048x1024 : 0 < S1x2048x1024.numel
  reduces_S1x2048x1024_S1x1024 : S1x2048x1024.Reduces [1] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  h_S1x512x1024 : 0 < S1x512x1024.numel
  inb_S1x512x3072_S1x512x1024_0_0_0 : ∀ a, (![0, 0, 0] : Fin 3 → Nat) a + S1x512x1024.size a ≤ S1x512x3072.size a
  broadcasts_S1x1x1024_S1x512x1024 : S1x1x1024.Broadcasts S1x512x1024
  inb_S1x512x3072_S1x512x1024_0_0_1024 : ∀ a, (![0, 0, 1024] : Fin 3 → Nat) a + S1x512x1024.size a ≤ S1x512x3072.size a
  inb_S1x512x3072_S1x512x1024_0_0_2048 : ∀ a, (![0, 0, 2048] : Fin 3 → Nat) a + S1x512x1024.size a ≤ S1x512x3072.size a
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3072.size a ≤ S16x2048x3072.size a
  hwx0_2 : ∀ i : grid0.Coords, EltTy.bits .f32 = 32 ∨ (Rect.block (s := S16x2048x3072) S1x512x3072.size (cc0_transform_2 i) (hinb0_2 i)).WholeWords (EltTy.packing .f32)

variable [Facts₀]

abbrev win0_0 : Pipeline.Window sig grid0 :=
  Pipeline.Window.ofSpec (Memref.whole main_arg2) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512 : Shape := ⟨2, ![16, 512]⟩
abbrev S16x2048x1024 : Shape := ⟨3, ![16, 2048, 1024]⟩
abbrev S16x1024 : Shape := ⟨2, ![16, 1024]⟩
abbrev S_ : Shape := ⟨0, ![]⟩
abbrev S16x1x1024 : Shape := ⟨3, ![16, 1, 1024]⟩
abbrev S16x2048x3072 : Shape := ⟨3, ![16, 2048, 3072]⟩

abbrev nBuf : Space → Nat
  | .hbm => 14
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x2048x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1x1024, .f32⟩
  | .hbm, ⟨7, _⟩ => ⟨S_, .f32⟩
  | .hbm, ⟨8, _⟩ => ⟨S16x1x1024, .f32⟩
  | .hbm, ⟨9, _⟩ => ⟨S16x1x1024, .f32⟩
  | .hbm, ⟨10, _⟩ => ⟨S16x2048x1024, .f32⟩
  | .hbm, ⟨11, _⟩ => ⟨S16x1x1024, .f32⟩
  | .hbm, ⟨12, _⟩ => ⟨S16x2048x1024, .f32⟩
  | .hbm, ⟨13, _⟩ => ⟨S16x2048x3072, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  concatenates_S16x512_S16x512_S16x1024_d1 : Shape.Concatenates [S16x512, S16x512] S16x1024 1
  reducesTo_S16x2048x1024_S16x1024_d1 : S16x2048x1024.ReducesTo [1] S16x1024
  h_S_ : 0 < S_.numel
  bcast_S16x1024_S16x1x1024_0_2 : S16x1024.BroadcastsInDim S16x1x1024 (![0, 2] : Fin 2 → Fin S16x1x1024.rank)
  bcast_S_S16x1x1024 : S_.BroadcastsInDim S16x1x1024 (![] : Fin 0 → Fin S16x1x1024.rank)
  bcast_S16x1x1024_S16x2048x1024_0_1_2 : S16x1x1024.BroadcastsInDim S16x2048x1024 (![0, 1, 2] : Fin 3 → Fin S16x2048x1024.rank)
  concatenates_S16x2048x1024_S16x2048x1024_S16x2048x1024_S16x2048x3072_d2 : Shape.Concatenates [S16x2048x1024, S16x2048x1024, S16x2048x1024] S16x2048x3072 2

variable [Facts₀]

class Facts : Prop extends Facts₀ where

variable [Facts]
-- ==== Proof.Tiles.lean ====
import Idealize.ShloMosaic.Lib.WritesUnit
import Idealize.ShloMosaic.Lib.ValueIdx

/-!
A buffer of shape [1, 512, 3072] filled by three stores, each a [1, 512, 1024] tile, at lane offsets 0, 1024 and 2048
(the list is newest first, so the tile at lane 2048 heads it). The three tiles are disjoint on the lane axis, so an
element whose lane lies in tile number q reads the payload of that tile at the lane minus 1024 * q, whatever the buffer
held before: the newer tiles that miss it are passed over one at a time.
-/

noncomputable section

namespace Cert.Tiles

open Idealize.ShloMosaic Idealize.ShloMosaic.ValueIdx

/-- The buffer's shape and a tile's. -/
abbrev SB : Shape := ⟨3, ![1, 512, 3072]⟩
abbrev ST : Shape := ⟨3, ![1, 512, 1024]⟩

/-- Lane l of tile 0, 1, 2 as a lane of the buffer. -/
abbrev lane0 (l : Fin 1024) : Fin 3072 := ⟨l.val, by have := l.isLt; omega⟩
abbrev lane1 (l : Fin 1024) : Fin 3072 := ⟨1024 + l.val, by have := l.isLt; omega⟩
abbrev lane2 (l : Fin 1024) : Fin 3072 := ⟨2048 + l.val, by have := l.isLt; omega⟩

/-- Every lane of the buffer is a lane of exactly one tile. -/
theorem lane_cases (q : Fin 3072) : (∃ l, q = lane0 l) ∨ (∃ l, q = lane1 l) ∨ (∃ l, q = lane2 l) := by
  have hq := q.isLt
  by_cases h1 : q.val < 1024
  · exact Or.inl ⟨⟨q.val, h1⟩, Fin.ext rfl⟩
  · by_cases h2 : q.val < 2048
    · exact Or.inr (Or.inl ⟨⟨q.val - 1024, by omega⟩, Fin.ext (by show q.val = 1024 + (q.val - 1024); omega)⟩)
    · exact Or.inr (Or.inr ⟨⟨q.val - 2048, by omega⟩, Fin.ext (by show q.val = 2048 + (q.val - 2048); omega)⟩)

variable {sig : RefSig} {κ : Kind} {sp : Space} {Val : EltTy → Type}
variable (v : View sig κ sp SB .f32) (f : v.ty.Contents Val)
variable (inb2 : ∀ a, (![0, 0, 2048] : Fin 3 → Nat) a + (![1, 512, 1024] : Fin 3 → Nat) a ≤ SB.size a)
variable (inb1 : ∀ a, (![0, 0, 1024] : Fin 3 → Nat) a + (![1, 512, 1024] : Fin 3 → Nat) a ≤ SB.size a)
variable (inb0 : ∀ a, (![0, 0, 0] : Fin 3 → Nat) a + (![1, 512, 1024] : Fin 3 → Nat) a ≤ SB.size a)
variable (w2 : (Rect.unit (s := SB) ![0, 0, 2048] ![1, 512, 1024] inb2).shape.Idx → Val .f32)
variable (w1 : (Rect.unit (s := SB) ![0, 0, 1024] ![1, 512, 1024] inb1).shape.Idx → Val .f32)
variable (w0 : (Rect.unit (s := SB) ![0, 0, 0] ![1, 512, 1024] inb0).shape.Idx → Val .f32)

/-- A lane of tile 0 reads the oldest store's payload: both newer tiles start past it. -/
theorem read_tile0 (r : Fin 512) (l : Fin 1024) :
    v.read Val (v.writes Val f [⟨Rect.unit (s := SB) ![0, 0, 2048] ![1, 512, 1024] inb2, w2⟩,
      ⟨Rect.unit (s := SB) ![0, 0, 1024] ![1, 512, 1024] inb1, w1⟩,
      ⟨Rect.unit (s := SB) ![0, 0, 0] ![1, 512, 1024] inb0, w0⟩]) (ix3 0 r (lane0 l)) = w0 (ix3 0 r l) := by
  have hl := l.isLt
  refine (View.read_writes_cons_unit_of_not_mem v f inb2 w2 _ _ rfl (2 : Fin 3) (Or.inl ?_)).trans
    ((View.read_writes_cons_unit_of_not_mem v f inb1 w1 _ _ rfl (2 : Fin 3) (Or.inl ?_)).trans
      (View.read_writes_cons_unit_of_mem v f inb0 w0 [] _ (ix3 0 r l) rfl fun a => ?_))
  · show l.val < 2048; omega
  · show l.val < 1024; omega
  · match a with
    | ⟨0, _⟩ => rfl
    | ⟨1, _⟩ => show r.val = 0 + r.val; omega
    | ⟨2, _⟩ => show l.val = 0 + l.val; omega

/-- A lane of tile 1 reads the middle store's payload: the newest tile starts past it. -/
theorem read_tile1 (r : Fin 512) (l : Fin 1024) :
    v.read Val (v.writes Val f [⟨Rect.unit (s := SB) ![0, 0, 2048] ![1, 512, 1024] inb2, w2⟩,
      ⟨Rect.unit (s := SB) ![0, 0, 1024] ![1, 512, 1024] inb1, w1⟩,
      ⟨Rect.unit (s := SB) ![0, 0, 0] ![1, 512, 1024] inb0, w0⟩]) (ix3 0 r (lane1 l)) = w1 (ix3 0 r l) := by
  have hl := l.isLt
  refine (View.read_writes_cons_unit_of_not_mem v f inb2 w2 _ _ rfl (2 : Fin 3) (Or.inl ?_)).trans
    (View.read_writes_cons_unit_of_mem v f inb1 w1 _ _ (ix3 0 r l) rfl fun a => ?_)
  · show 1024 + l.val < 2048; omega
  · match a with
    | ⟨0, _⟩ => rfl
    | ⟨1, _⟩ => show r.val = 0 + r.val; omega
    | ⟨2, _⟩ => rfl

/-- A lane of tile 2 reads the newest store's payload. -/
theorem read_tile2 (r : Fin 512) (l : Fin 1024) :
    v.read Val (v.writes Val f [⟨Rect.unit (s := SB) ![0, 0, 2048] ![1, 512, 1024] inb2, w2⟩,
      ⟨Rect.unit (s := SB) ![0, 0, 1024] ![1, 512, 1024] inb1, w1⟩,
      ⟨Rect.unit (s := SB) ![0, 0, 0] ![1, 512, 1024] inb0, w0⟩]) (ix3 0 r (lane2 l)) = w2 (ix3 0 r l) := by
  refine View.read_writes_cons_unit_of_mem v f inb2 w2 _ _ (ix3 0 r l) rfl fun a => ?_
  match a with
  | ⟨0, _⟩ => rfl
  | ⟨1, _⟩ => show r.val = 0 + r.val; omega
  | ⟨2, _⟩ => rfl

end Cert.Tiles

end
-- ==== Proof.Block.lean ====
import proofs.«134692_j42958262895310_2_alg».proof.Proof.Gen.KernelIdeal.Frame
import proofs.«134692_j42958262895310_2_alg».proof.Proof.Tiles
import Idealize.ShloMosaic.Lib.Pipeline.Value
import Idealize.ShloMosaic.Lib.Tactic

/-!
What one run of the body leaves behind, element by element, for any float instance.

The body fills its [1, 512, 3072] output buffer with three [1, 512, 1024] tiles on the lane axis: rows
512 p … 512 p + 511 of the resident [1, 2048, 1024] input block (p the row-tile coordinate of the grid point), the
[1, 1, 1024] scratch row repeated on every row, and the [1, 1, 1024] hidden row repeated on every row. When p = 0 it
first stores into the scratch row the row it computes from the whole input block, and the middle tile repeats that
freshly stored row; when p > 0 the scratch row is only read. Each statement below reads one tile at row r and lane l.
-/

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen Cert.Tiles

variable {F : FTy → Type} [FloatOps F]

theorem hz3 : (![0, 0, 0] : Fin 3 → Nat) = fun _ => 0 := funext fun a => by fin_cases a <;> rfl

/-- A [1, 1, 1024] row broadcast over the 512 rows of a tile reads, at row r and lane l, the row's lane l. -/
theorem bcast_row (x : Vec F S1x1x1024 .f32) (h : S1x1x1024.Broadcasts S1x512x1024) (r : Fin 512) (l : Fin 1024) :
    broadcastTo S1x512x1024 x h (ix3 0 r l) = x (ix3 0 0 l) :=
  broadcastTo_apply x h (ix3 0 r l) (ix3 0 0 l) fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show l.val = if (1024 : Nat) = 1 then 0 else l.val; rw [if_neg (by decide)]

/-- The middle tile's payload: the scratch row on every row. -/
theorem pay2_apply (x : Vec F S1x1x1024 .f32) (r : Fin 512) (l : Fin 1024) : k0_pay2 x (ix3 0 r l) = x (ix3 0 0 l) := by
  unfold k0_pay2
  rw [shapeCast_self]
  exact bcast_row x _ r l

/-- The last tile's payload: the hidden row on every row. -/
theorem pay3_apply (x : Vec F S1x1x1024 .f32) (r : Fin 512) (l : Fin 1024) : k0_pay3 x (ix3 0 r l) = x (ix3 0 0 l) := by
  unfold k0_pay3
  rw [shapeCast_self, shapeCast_self]
  exact bcast_row x _ r l

section Cases
variable (c : Dev nD) (i : grid0.Coords) (a2 : Memref sig .tc .vmem S1x2048x1024 .f32) (h2 : a2.IsWhole)
  (a3 : Memref sig .tc .vmem S1x1x1024 .f32) (h3 : a3.IsWhole) (a4 : Memref sig .tc .vmem S1x512x3072 .f32) (h4 : a4.IsWhole)
  (a5 : Memref sig .tc .vmem S1x1x1024 .f32) (h5 : a5.IsWhole)
  (x0 : Vec F S1x2048x1024 .f32) (x1 : Vec F S1x1x1024 .f32)

/-- Later row tiles of a batch (p > 0): the first tile is rows 512 p + r of the input block. -/
theorem out_B_tile0 (hc : ¬cond0_0 i) (xs0 : Vec F S1x1x1024 .f32) (p : Fin 4) (hp : (i 1).val = p.val) (r : Fin 512) (l : Fin 1024) :
    out0_B_2 c i a2 h2 a3 h3 a4 h4 a5 h5 hc x0 x1 xs0 (ix3 0 r (lane0 l))
      = x0 (ix3 0 ⟨512 * p.val + r.val, by have := p.isLt; have := r.isLt; omega⟩ l) := by
  unfold out0_B_2 kernelRun0_B
  dsimp only
  refine (read_tile0 _ _ _ _ _ _ _ _ r l).trans ?_
  rw [View.readAt_eq_ld, h2.read_unread]
  refine congrArg x0 (funext fun a => Fin.ext ?_)
  match a with
  | ⟨0, _⟩ => show k0_off1 i 0 + 1 * 0 = 0; rw [k0_off1_eq]; rfl
  | ⟨1, _⟩ => show k0_off1 i 1 + 1 * r.val = 512 * p.val + r.val; rw [k0_off1_eq]; show 512 * (i 1).val + 1 * r.val = _; rw [hp]; omega
  | ⟨2, _⟩ => show k0_off1 i 2 + 1 * l.val = l.val; rw [k0_off1_eq]; show 0 + 1 * l.val = l.val; omega

/-- There the middle tile is the scratch row as the body found it. -/
theorem out_B_tile1 (hc : ¬cond0_0 i) (xs0 : Vec F S1x1x1024 .f32) (r : Fin 512) (l : Fin 1024) :
    out0_B_2 c i a2 h2 a3 h3 a4 h4 a5 h5 hc x0 x1 xs0 (ix3 0 r (lane1 l)) = xs0 (ix3 0 0 l) := by
  unfold out0_B_2 kernelRun0_B
  dsimp only
  refine (read_tile1 _ _ _ _ _ _ _ _ r l).trans ?_
  rw [View.readAt_eq_ld, h5.read_unread, View.ld_unit_zero (S := S1x1x1024) hz3]
  exact pay2_apply xs0 r l

/-- And the last tile is the hidden row. -/
theorem out_B_tile2 (hc : ¬cond0_0 i) (xs0 : Vec F S1x1x1024 .f32) (r : Fin 512) (l : Fin 1024) :
    out0_B_2 c i a2 h2 a3 h3 a4 h4 a5 h5 hc x0 x1 xs0 (ix3 0 r (lane2 l)) = x1 (ix3 0 0 l) := by
  unfold out0_B_2 kernelRun0_B
  dsimp only
  refine (read_tile2 _ _ _ _ _ _ _ _ r l).trans ?_
  rw [View.readAt_eq_ld, h3.read_unread, View.ld_unit_zero (S := S1x1x1024) hz3]
  exact pay3_apply x1 r l

/-- At a first row tile of a batch the scratch row ends holding the row the body computes from the whole batch block. -/
theorem sout_A (hc : cond0_0 i) : sout0_A_0 c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz3, View.readAt_eq_ld, h2.read_unread, View.ld_unit_zero (S := S1x2048x1024) hz3]

/-- First row tile of a batch (p = 0): the first tile is rows 512 p + r of the input block. -/
theorem out_A_tile0 (hc : cond0_0 i) (p : Fin 4) (hp : (i 1).val = p.val) (r : Fin 512) (l : Fin 1024) :
    out0_A_2 c i a2 h2 a3 h3 a4 h4 a5 h5 hc x0 x1 (ix3 0 r (lane0 l))
      = x0 (ix3 0 ⟨512 * p.val + r.val, by have := p.isLt; have := r.isLt; omega⟩ l) := by
  unfold out0_A_2 kernelRun0_A
  dsimp only
  refine (read_tile0 _ _ _ _ _ _ _ _ r l).trans ?_
  rw [View.readAt_eq_ld, h2.read_unread]
  refine congrArg x0 (funext fun a => Fin.ext ?_)
  match a with
  | ⟨0, _⟩ => show k0_off1 i 0 + 1 * 0 = 0; rw [k0_off1_eq]; rfl
  | ⟨1, _⟩ => show k0_off1 i 1 + 1 * r.val = 512 * p.val + r.val; rw [k0_off1_eq]; show 512 * (i 1).val + 1 * r.val = _; rw [hp]; omega
  | ⟨2, _⟩ => show k0_off1 i 2 + 1 * l.val = l.val; rw [k0_off1_eq]; show 0 + 1 * l.val = l.val; omega

/-- There the middle tile is the row just stored into the scratch, read back and broadcast. -/
theorem out_A_tile1 (hc : cond0_0 i) (r : Fin 512) (l : Fin 1024) :
    out0_A_2 c i a2 h2 a3 h3 a4 h4 a5 h5 hc x0 x1 (ix3 0 r (lane1 l)) = k0_pay1 x0 (ix3 0 0 l) := by
  unfold out0_A_2 kernelRun0_A
  dsimp only
  sl_unfold_words
  refine (read_tile1 _ _ _ _ _ _ _ _ r l).trans ?_
  rw [View.readCov_unit_zero (S := S1x1x1024) _ hz3, View.readAt_eq_ld, h2.read_unread, View.ld_unit_zero (S := S1x2048x1024) hz3]
  exact pay2_apply (k0_pay1 x0) r l

/-- And the last tile is the hidden row. -/
theorem out_A_tile2 (hc : cond0_0 i) (r : Fin 512) (l : Fin 1024) :
    out0_A_2 c i a2 h2 a3 h3 a4 h4 a5 h5 hc x0 x1 (ix3 0 r (lane2 l)) = x1 (ix3 0 0 l) := by
  unfold out0_A_2 kernelRun0_A
  dsimp only
  refine (read_tile2 _ _ _ _ _ _ _ _ r l).trans ?_
  rw [View.readAt_eq_ld, h3.read_unread, View.ld_unit_zero (S := S1x1x1024) hz3]
  exact pay3_apply x1 r l

end Cases

end Cert.KernelIdeal.Block

end
-- ==== Proof.Spec.lean ====
import Idealize.ShloMosaic.PureOps.Ideal
import Idealize.ShloMosaic.Lib.ValueIdx
import proofs.«134692_j42958262895310_2_alg».proof.Proof.Tiles

/-!
The result as one function of the arrays, over the extended reals.

With X the [16, 2048, 1024] input and H the [16, 1, 1024] row of hidden features per batch, the [16, 2048, 3072] result
at (b, r, q) is
  * X (b, r, q)                                   for a lane q below 1024,
  * the mean over the 2048 rows k of X (b, k, q - 1024)   for 1024 ≤ q < 2048,
  * H (b, 0, q - 2048)                            from lane 2048 on.
The mean is written as the sum times 1/2048. One program multiplies the sum by the float 2^-11 and the other divides it
by the float 2048; both floats are exact powers of two, and on the extended reals dividing by a nonzero real is
multiplying by its reciprocal at every argument, infinite ones included, so the two agree with no finiteness assumption.
-/

noncomputable section

namespace Cert.Spec

open Idealize.ShloMosaic Idealize.ShloMosaic.ValueIdx Cert.Tiles

/-- The float 2048.0 denotes the real 2048. -/
theorem ofBits_2048 : Ideal.ofBits .f32 0x45000000#32 = ((2048 : ℝ) : EReal) := by
  simp [Ideal.ofBits, Ideal.ieee, -EReal.coe_mul]; norm_num

/-- The float 2^-11 denotes the real 1/2048. -/
theorem ofBits_inv_2048 : Ideal.ofBits .f32 0x3A000000#32 = ((1 / 2048 : ℝ) : EReal) := by
  simp [Ideal.ofBits, Ideal.ieee, -EReal.coe_mul]; norm_num

/-- Dividing by the float 2048.0 is multiplying by 1/2048, on every extended real. -/
theorem div_2048 (x : EReal) : Ideal.div x (Ideal.ofBits .f32 0x45000000#32) = x * ((1 / 2048 : ℝ) : EReal) := by
  rw [ofBits_2048, Ideal.div_coe (by norm_num : (2048 : ℝ) ≠ 0)]

/-- The mean over the rows of batch b, at lane l. -/
def mean (X : (⟨3, ![16, 2048, 1024]⟩ : Shape).Idx → EReal) (b : Fin 16) (l : Fin 1024) : EReal :=
  (∑ k : Fin 2048, X (ix3 b k l)) * ((1 / 2048 : ℝ) : EReal)

/-- The result array. -/
def G (H : (⟨3, ![16, 1, 1024]⟩ : Shape).Idx → EReal) (X : (⟨3, ![16, 2048, 1024]⟩ : Shape).Idx → EReal) :
    (⟨3, ![16, 2048, 3072]⟩ : Shape).Idx → EReal := fun i =>
  if h1 : (i 2).val < 1024 then X (ix3 (i 0) (i 1) ⟨(i 2).val, h1⟩)
  else if h2 : (i 2).val < 2048 then mean X (i 0) ⟨(i 2).val - 1024, by omega⟩
  else H (ix3 (i 0) 0 ⟨(i 2).val - 2048, by have h3 : (i 2).val < 3072 := (i 2).isLt; omega⟩)

variable (H : (⟨3, ![16, 1, 1024]⟩ : Shape).Idx → EReal) (X : (⟨3, ![16, 2048, 1024]⟩ : Shape).Idx → EReal)

theorem G_tile0 (b : Fin 16) (r : Fin 2048) (l : Fin 1024) : G H X (ix3 b r (lane0 l)) = X (ix3 b r l) := by
  unfold G
  rw [dif_pos (show ((ix3 b r (lane0 l) : (⟨3, ![16, 2048, 3072]⟩ : Shape).Idx) 2).val < 1024 from l.isLt)]

theorem G_tile1 (b : Fin 16) (r : Fin 2048) (l : Fin 1024) : G H X (ix3 b r (lane1 l)) = mean X b l := by
  have hl := l.isLt
  unfold G
  rw [dif_neg (show ¬((ix3 b r (lane1 l) : (⟨3, ![16, 2048, 3072]⟩ : Shape).Idx) 2).val < 1024 from by show ¬(1024 + l.val < 1024); omega),
    dif_pos (show ((ix3 b r (lane1 l) : (⟨3, ![16, 2048, 3072]⟩ : Shape).Idx) 2).val < 2048 from by show 1024 + l.val < 2048; omega)]
  exact congrArg (mean X b) (Fin.ext (by show 1024 + l.val - 1024 = l.val; omega))

theorem G_tile2 (b : Fin 16) (r : Fin 2048) (l : Fin 1024) : G H X (ix3 b r (lane2 l)) = H (ix3 b 0 l) := by
  have hl := l.isLt
  unfold G
  rw [dif_neg (show ¬((ix3 b r (lane2 l) : (⟨3, ![16, 2048, 3072]⟩ : Shape).Idx) 2).val < 1024 from by show ¬(2048 + l.val < 1024); omega),
    dif_neg (show ¬((ix3 b r (lane2 l) : (⟨3, ![16, 2048, 3072]⟩ : Shape).Idx) 2).val < 2048 from by show ¬(2048 + l.val < 2048); omega)]
  exact congrArg H (congrArg (ix3 b 0) (Fin.ext (by show 2048 + l.val - 2048 = l.val; omega)))

end Cert.Spec

end
-- ==== Proof.Pay.lean ====
import proofs.«134692_j42958262895310_2_alg».proof.Proof.Gen.KernelIdeal.Skeleton
import proofs.«134692_j42958262895310_2_alg».proof.Proof.Spec
import Idealize.ShloMosaic.Lib.Pipeline.Value
import Idealize.ShloMosaic.Lib.ValueIdx
import Idealize.ShloMosaic.PureOps.Ideal.Laws

/-!
The row the body keeps in its scratch, over the extended reals: from a whole batch block x of shape [1, 2048, 1024] it
is, at lane l, the sum over the 2048 rows k of x (0, k, l), times 1/2048. The sum over the row axis of the block is a
plain finite sum there (no order, no rounding), the reshapes [1, 1024] → [1, 1, 1024] keep the lane, and the float the
sum is multiplied by is 2^-11.
-/

noncomputable section

open Idealize.ShloMosaic Idealize.ShloMosaic.ValueIdx

namespace Cert.KernelIdeal.Pay

open Cert.KernelIdeal Cert.KernelIdeal.Gen

/-- The sum over the row axis of a [1, 2048, 1024] block, read at lane l. -/
theorem rowsum_apply (x : FVec Ideal S1x2048x1024 .f32) (h : S1x2048x1024.Reduces [1] S1x1024) (hφ : FKind.Formats .f32)
    (hacc : (0x00000000#32 : BitVec 32) = FKind.add.neutral .f32 hφ) (l : Fin 1024) :
    multiReduction (F := Ideal) .add [1] S1x1024 x 0x00000000#32 h hφ hacc (ix2 0 l) = ∑ k : Fin 2048, x (ix3 0 k l) := by
  refine (Ideal.multiReduction_add_single x 0x00000000#32 h hφ hacc (ix2 0 l)).trans ?_
  exact Finset.sum_congr rfl fun k _ => congrArg x (funext fun a => Fin.ext (by
    match a with
    | ⟨0, _⟩ => rfl
    | ⟨1, _⟩ => rfl
    | ⟨2, _⟩ => rfl))

/-- The scratch row at lane l: the mean of the block's rows at that lane. -/
theorem pay1_apply (x : Vec Ideal S1x2048x1024 .f32) (l : Fin 1024) :
    k0_pay1 (F := Ideal) x (ix3 0 0 l) = (∑ k : Fin 2048, x (ix3 0 k l)) * ((1 / 2048 : ℝ) : EReal) := by
  unfold k0_pay1
  rw [shapeCast_self]
  refine (mulf_apply _ _ _).trans (congrArg₂ (· * ·) ?_ ?_)
  · refine (shapeCast_apply _ _ (ix3 0 0 l) (ix2 0 l) ?_).trans (rowsum_apply x _ _ _ l)
    rw [Shape.rowMajor_val_two, Shape.rowMajor_val_three]
    show (0 : Nat) * 1024 + l.val = ((0 : Nat) * 1 + 0) * 1024 + l.val
    omega
  · exact Spec.ofBits_inv_2048

end Cert.KernelIdeal.Pay

end
-- ==== Proof.Point.lean ====
import proofs.«134692_j42958262895310_2_alg».proof.Proof.Block
import proofs.«134692_j42958262895310_2_alg».proof.Proof.Pay
import proofs.«134692_j42958262895310_2_alg».proof.Proof.Spec

/-!
One grid point, over the extended reals. The point (b, p) of the 16 × 4 grid holds in its first input buffer the whole
batch block X (b, ·, ·), in its second the hidden row H (b, 0, ·), and leaves in its output buffer rows 512 p … 512 p + 511
of batch b of the result: the input rows themselves, beside them the batch mean, beside that the hidden row. At p = 0 the
mean is computed from the batch block and kept in the scratch row; at p > 0 it is read from the scratch row, which must
then hold the mean of the same batch.
-/

noncomputable section

open Idealize.ShloMosaic Idealize.ShloMosaic.TcCoe Idealize.SL.Sem Idealize.ShloMosaic.ValueIdx

namespace Cert.KernelIdeal.Point

open Cert.KernelIdeal Cert.KernelIdeal.Gen Cert.Tiles

/-- Row r of row tile p, as a row of the array. -/
abbrev row (p : Fin 4) (r : Fin 512) : Fin 2048 := ⟨512 * p.val + r.val, by have := p.isLt; have := r.isLt; omega⟩

variable (c : Dev nD) (i : grid0.Coords) (a2 : Memref sig .tc .vmem S1x2048x1024 .f32) (h2 : a2.IsWhole)
  (a3 : Memref sig .tc .vmem S1x1x1024 .f32) (h3 : a3.IsWhole) (a4 : Memref sig .tc .vmem S1x512x3072 .f32) (h4 : a4.IsWhole)
  (a5 : Memref sig .tc .vmem S1x1x1024 .f32) (h5 : a5.IsWhole)
  (x0 : Vec Ideal S1x2048x1024 .f32) (x1 : Vec Ideal S1x1x1024 .f32)
  (H : (⟨3, ![16, 1, 1024]⟩ : Shape).Idx → EReal) (X : (⟨3, ![16, 2048, 1024]⟩ : Shape).Idx → EReal)
  (b : Fin 16) (p : Fin 4) (hp : (i 1).val = p.val)
  (hx0 : ∀ (k : Fin 2048) (l : Fin 1024), x0 (ix3 0 k l) = X (ix3 b k l))
  (hx1 : ∀ l : Fin 1024, x1 (ix3 0 0 l) = H (ix3 b 0 l))

include hx0 in
/-- The row computed from the batch block is the batch mean. -/
theorem pay1_mean (l : Fin 1024) : k0_pay1 (F := Ideal) x0 (ix3 0 0 l) = Spec.mean X b l := by
  refine (Pay.pay1_apply x0 l).trans ?_
  unfold Spec.mean
  exact congrArg (· * (((1 / 2048 : ℝ) : EReal))) (Finset.sum_congr rfl fun k _ => hx0 k l)

include hx0 in
/-- At p = 0 the scratch row is left at the batch mean. -/
theorem scratch_A (hc : cond0_0 i) (l : Fin 1024) :
    sout0_A_0 c i a2 h2 a3 h3 a4 h4 a5 h5 hc x0 x1 (ix3 0 0 l) = Spec.mean X b l :=
  (congrFun (Block.sout_A c i a2 h2 a3 h3 a4 h4 a5 h5 x0 x1 hc) (ix3 0 0 l)).trans (pay1_mean x0 X b hx0 l)

include hp hx0 hx1 in
/-- At p = 0 the output buffer is left at the result's rows. -/
theorem out_A (hc : cond0_0 i) (r : Fin 512) (q : Fin 3072) :
    out0_A_2 c i a2 h2 a3 h3 a4 h4 a5 h5 hc x0 x1 (ix3 0 r q) = Spec.G H X (ix3 b (row p r) q) := by
  rcases lane_cases q with ⟨l, rfl⟩ | ⟨l, rfl⟩ | ⟨l, rfl⟩
  · rw [Spec.G_tile0]
    exact (Block.out_A_tile0 c i a2 h2 a3 h3 a4 h4 a5 h5 x0 x1 hc p hp r l).trans (hx0 _ l)
  · rw [Spec.G_tile1]
    exact (Block.out_A_tile1 c i a2 h2 a3 h3 a4 h4 a5 h5 x0 x1 hc r l).trans (pay1_mean x0 X b hx0 l)
  · rw [Spec.G_tile2]
    exact (Block.out_A_tile2 c i a2 h2 a3 h3 a4 h4 a5 h5 x0 x1 hc r l).trans (hx1 l)

include hp hx0 hx1 in
/-- At p > 0, over a scratch row holding the batch mean, the output buffer is left at the result's rows. -/
theorem out_B (hc : ¬cond0_0 i) (xs0 : Vec Ideal S1x1x1024 .f32) (hs : ∀ l : Fin 1024, xs0 (ix3 0 0 l) = Spec.mean X b l)
    (r : Fin 512) (q : Fin 3072) :
    out0_B_2 c i a2 h2 a3 h3 a4 h4 a5 h5 hc x0 x1 xs0 (ix3 0 r q) = Spec.G H X (ix3 b (row p r) q) := by
  rcases lane_cases q with ⟨l, rfl⟩ | ⟨l, rfl⟩ | ⟨l, rfl⟩
  · rw [Spec.G_tile0]
    exact (Block.out_B_tile0 c i a2 h2 a3 h3 a4 h4 a5 h5 x0 x1 hc xs0 p hp r l).trans (hx0 _ l)
  · rw [Spec.G_tile1]
    exact (Block.out_B_tile1 c i a2 h2 a3 h3 a4 h4 a5 h5 x0 x1 hc xs0 r l).trans (hs l)
  · rw [Spec.G_tile2]
    exact (Block.out_B_tile2 c i a2 h2 a3 h3 a4 h4 a5 h5 x0 x1 hc xs0 r l).trans (hx1 l)

end Cert.KernelIdeal.Point

end
-- ==== Proof.Whole.lean ====
import proofs.«134692_j42958262895310_2_alg».proof.Proof.Gen.KernelIdeal.Value
import proofs.«134692_j42958262895310_2_alg».proof.Proof.Point
import Idealize.ShloMosaic.Lib.StableHlo.Run

/-!
The whole result array of the pipelined program, over the extended reals.

The 64 grid points run in the order t = 4 b + p (b the batch, p the row tile). The input windows at point t are batch
b's block of X and of the hidden row H; the output window is rows 512 p … 512 p + 511 of batch b. The scratch row after
point t holds the mean of batch t / 4: a point with p = 0 computes it from its own batch block, and a point with p > 0
leaves the row alone, which by induction holds the mean of the batch of the point before — the same batch. So every
point writes back its own block of the one result array, the 64 blocks cover the array, and the array ends at it.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Tiles

variable (m : (ℓ : Loc nD τ sig) → Buf (Elt Ideal) ℓ) (ρ : Dev nD → PrngReg)

/-- The printed index maps over the grid: at point t the input blocks are batch t / 4's, the output block is row tile
    t % 4 of that batch, and the body's second grid coordinate is t % 4. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ (grid0.coords t 1).val = t.val % 4 :=
  (by decide +kernel : ∀ t : Fin grid0.N, _)

/-- The batch and the row tile of point t. -/
abbrev batch (t : Fin cfg0.N) : Fin 16 := ⟨t.val / 4, by have := t.isLt; have hN : cfg0.N = 64 := N_0; omega⟩
abbrev tile (t : Fin cfg0.N) : Fin 4 := ⟨t.val % 4, Nat.mod_lt _ (by decide)⟩

/-- The first input block at point t is batch t / 4 of the input array. -/
theorem iblk0_apply (c : Dev nD) (t : Fin cfg0.N) (k : Fin 2048) (l : Fin 1024) :
    (iblk m c 0 t : Vec Ideal S1x2048x1024 .f32) (ix3 0 k l) = V m c main_arg2 (ix3 (batch t) k l) := by
  obtain ⟨e0, e1, e2, -⟩ := idx_facts t
  unfold iblk
  show V m c main_arg2 _ = V m c main_arg2 _
  refine congrArg (V m c main_arg2) (funext fun a => Fin.ext ?_)
  match a with
  | ⟨0, _⟩ => show win0_0.index t (0 : Fin 3) * 1 + 1 * 0 = t.val / 4; omega
  | ⟨1, _⟩ => show win0_0.index t (1 : Fin 3) * 2048 + 1 * k.val = k.val; omega
  | ⟨2, _⟩ => show win0_0.index t (2 : Fin 3) * 1024 + 1 * l.val = l.val; omega

/-- The second input block at point t is batch t / 4 of the hidden row array. -/
theorem iblk1_apply (c : Dev nD) (t : Fin cfg0.N) (l : Fin 1024) :
    (iblk m c 1 t : Vec Ideal S1x1x1024 .f32) (ix3 0 0 l) = V m c main_v1 (ix3 (batch t) 0 l) := by
  obtain ⟨-, -, -, e0, e1, e2, -⟩ := idx_facts t
  unfold iblk
  show V m c main_v1 _ = V m c main_v1 _
  refine congrArg (V m c main_v1) (funext fun a => Fin.ext ?_)
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 1024 + 1 * l.val = l.val; omega

/-- A point with row tile 0 leaves the scratch row at its batch's mean. -/
theorem scratch_first (c : Dev nD) (t : Fin cfg0.N) (h0 : t.val % 4 = 0) (l : Fin 1024) :
    (outsAt0 m c t.val t.isLt).2 (ix3 0 0 l) = Spec.mean (V m c main_arg2) (batch t) l := by
  rw [outsAt0_A m c t h0]
  dsimp only
  exact Point.scratch_A c (grid0.coords t) (ms0_0 t) (hs0_0 t) (ms0_1 t) (hs0_1 t) (ms0_2 t) (hs0_2 t) scM0_0 (Memref.isWhole_whole _) (iblk m c 0 t) (iblk m c 1 t) (V m c main_arg2) (batch t) (iblk0_apply m c t) ((hcond0_0 t).mpr h0) l

/-- After every point the scratch row holds the mean of the point's batch. -/
theorem scratch_eq (c : Dev nD) : ∀ (n : ℕ) (h : n < cfg0.N) (l : Fin 1024),
    (outsAt0 m c n h).2 (ix3 0 0 l) = Spec.mean (V m c main_arg2) (batch ⟨n, h⟩) l
  | 0, h, l => scratch_first m c ⟨0, h⟩ rfl l
  | n + 1, h, l => by
    by_cases h0 : (n + 1) % 4 = 0
    · exact scratch_first m c ⟨n + 1, h⟩ h0 l
    · rw [outsAt0_B m c ⟨n + 1, h⟩ h0]
      dsimp only
      unfold sout0_B_0
      exact (scratch_eq c n _ l).trans
        (congrArg (fun b => Spec.mean (V m c main_arg2) b l) (Fin.ext (by show n / 4 = (n + 1) / 4; omega)))

/-- Where the output block's element (0, r, q) sits in the result array. -/
theorem emb2 (t : Fin cfg0.N) (r : Fin 512) (q : Fin 3072) :
    ((cfg0.win 2).blk t).view.emb (ix3 0 r q : S1x512x3072.Idx) = (ix3 (batch t) (Point.row (tile t) r) q : S16x2048x3072.Idx) := by
  obtain ⟨-, -, -, -, -, -, e0, e1, e2, -⟩ := idx_facts t
  funext a
  apply Fin.ext
  match a with
  | ⟨0, _⟩ => show win0_2.index t (0 : Fin 3) * 1 + 1 * 0 = t.val / 4; omega
  | ⟨1, _⟩ => show win0_2.index t (1 : Fin 3) * 512 + 1 * r.val = 512 * (t.val % 4) + r.val; omega
  | ⟨2, _⟩ => show win0_2.index t (2 : Fin 3) * 3072 + 1 * q.val = q.val; omega

/-- What point t writes back is its block of the result array. -/
theorem flushed_eq (c : Dev nD) (t : Fin cfg0.N) :
    (dats m 0 c).flushed 2 t
      = ((cfg0.win 2).blk t).view.read (Elt Ideal) (Spec.G (V m c main_v1) (V m c main_arg2)) := by
  have hp : (grid0.coords t 1).val = (tile t).val := (idx_facts t).2.2.2.2.2.2.2.2.2
  refine funext fun (j : S1x512x3072.Idx) => ?_
  obtain ⟨p0, r, q, rfl⟩ : ∃ (p0 : Fin 1) (r : Fin 512) (q : Fin 3072), j = ix3 p0 r q := ⟨j 0, j 1, j 2, eq_ix3 j⟩
  obtain rfl : p0 = 0 := Subsingleton.elim _ _
  show (dats m 0 c).flushed 2 t (ix3 0 r q)
    = Spec.G (V m c main_v1) (V m c main_arg2) (((cfg0.win 2).blk t).view.emb (ix3 0 r q : S1x512x3072.Idx))
  rw [emb2 t r q]
  by_cases h0 : t.val % 4 = 0
  · rw [Value.flushed2_A m c t h0]
    exact Point.out_A c (grid0.coords t) (ms0_0 t) (hs0_0 t) (ms0_1 t) (hs0_1 t) (ms0_2 t) (hs0_2 t) scM0_0 (Memref.isWhole_whole _) (iblk m c 0 t) (iblk m c 1 t) (V m c main_v1) (V m c main_arg2) (batch t) (tile t) hp (iblk0_apply m c t) (iblk1_apply m c t)
      ((hcond0_0 t).mpr h0) r q
  · rw [Value.flushed2_B m c t h0]
    have hN : cfg0.N = 64 := N_0
    have ht := t.isLt
    exact Point.out_B c (grid0.coords t) (ms0_0 t) (hs0_0 t) (ms0_1 t) (hs0_1 t) (ms0_2 t) (hs0_2 t) scM0_0 (Memref.isWhole_whole _) (iblk m c 0 t) (iblk m c 1 t) (V m c main_v1) (V m c main_arg2) (batch t) (tile t) hp (iblk0_apply m c t) (iblk1_apply m c t)
      (fun h => h0 ((hcond0_0 t).mp h)) _
      (fun l => (scratch_eq m c (t.val - 1) _ l).trans
        (congrArg (fun b => Spec.mean (V m c main_arg2) b l) (Fin.ext (by show (t.val - 1) / 4 = t.val / 4; omega)))) r q

/-- An index of the result array lies in point t's block iff each coordinate lies in the block's range. -/
theorem mem_blk (t : Fin cfg0.N) (i : S16x2048x3072.Idx) :
    i ∈ ((cfg0.win 2).blk t).view.set ↔ ∀ a : Fin 3, win0_2.index t a * S1x512x3072.size a ≤ (i a).val
      ∧ (i a).val < win0_2.index t a * S1x512x3072.size a + S1x512x3072.size a := by
  show i ∈ ((View.whole main_v2).slice (win0_2.rect t)).set ↔ _
  rw [View.set_slice_whole, Rect.mem_set_unit]
  exact Iff.rfl

/-- Every index of the result array is in some point's block: element (b, r, ·) in the block of point 4 b + r / 512. -/
theorem cover (i : S16x2048x3072.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 3072 := (i 2).isLt
  have hN : cfg0.N = 64 := N_0
  refine ⟨⟨4 * (i 0).val + (i 1).val / 512, by omega⟩, flush0_2 _, ?_⟩
  obtain ⟨-, -, -, -, -, -, e0, e1, e2, -⟩ := idx_facts ⟨4 * (i 0).val + (i 1).val / 512, by omega⟩
  rw [mem_blk]
  intro a
  match a with
  | ⟨0, _⟩ =>
    show win0_2.index _ (0 : Fin 3) * 1 ≤ (i 0).val ∧ (i 0).val < win0_2.index _ (0 : Fin 3) * 1 + 1
    rw [e0]; show (4 * (i 0).val + (i 1).val / 512) / 4 * 1 ≤ (i 0).val ∧ (i 0).val < (4 * (i 0).val + (i 1).val / 512) / 4 * 1 + 1
    omega
  | ⟨1, _⟩ =>
    show win0_2.index _ (1 : Fin 3) * 512 ≤ (i 1).val ∧ (i 1).val < win0_2.index _ (1 : Fin 3) * 512 + 512
    rw [e1]; show (4 * (i 0).val + (i 1).val / 512) % 4 * 512 ≤ (i 1).val ∧ (i 1).val < (4 * (i 0).val + (i 1).val / 512) % 4 * 512 + 512
    omega
  | ⟨2, _⟩ =>
    show win0_2.index _ (2 : Fin 3) * 3072 ≤ (i 2).val ∧ (i 2).val < win0_2.index _ (2 : Fin 3) * 3072 + 3072
    rw [e2]; omega

/-- The result array after the run. -/
theorem final (c : Dev nD) : (dats m 0 c).arrAt 2 cfg0.N = Spec.G (V m c main_v1) (V m c main_arg2) :=
  (dats m 0 c).arrAt_eq_of_cover 2 (Spec.G (V m c main_v1) (V m c main_arg2)) (fun t _ => flushed_eq m c t) cover

/-- The hidden row array the region finds: the two hidden inputs side by side, as a [16, 1, 1024] array. -/
theorem hidden_eq (c : Dev nD) : (V m c main_v1 : S16x1x1024.Idx → Elt Ideal .f32)
    = broadcastInDim S16x1x1024 ![0, 2] bcast_S16x1024_S16x1x1024_0_2
        (concatenate S16x1024 1 [⟨S16x512, m ((c : Thread nD τ).loc main_arg0)⟩, ⟨S16x512, m ((c : Thread nD τ).loc main_arg1)⟩]
          concatenates_S16x512_S16x512_S16x1024_d1) := by
  dsimp only [Gen.V, Gen.hostOps0]; after_results <;> rfl

/-- The run, read: the result array at the specification of the launch contents, the arguments unchanged. -/
theorem run : θ_run defs (onTc (τ := τ) (main (F := Ideal))) ⟨m, fun _ => 0, ρ⟩ fun r => ∀ c : Dev nD,
      r.2.mem ((c : Thread nD τ).loc main_v2)
        = Spec.G (broadcastInDim S16x1x1024 ![0, 2] bcast_S16x1024_S16x1x1024_0_2
            (concatenate S16x1024 1 [⟨S16x512, m ((c : Thread nD τ).loc main_arg0)⟩, ⟨S16x512, m ((c : Thread nD τ).loc main_arg1)⟩]
              concatenates_S16x512_S16x512_S16x1024_d1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (congrArg₂ Spec.G (hidden_eq m c) (V_main_arg2 m c))), (h c).2⟩)
    (Value.run_blocks m ρ)

end Cert.KernelIdeal.Whole

end
-- ==== Proof.RefValue.lean ====
import proofs.«134692_j42958262895310_2_alg».proof.Proof.Gen.ReferenceIdeal.Read
import proofs.«134692_j42958262895310_2_alg».proof.Proof.Spec
import Idealize.ShloMosaic.Lib.Pipeline.Value
import Idealize.ShloMosaic.Lib.ValueIdx

/-!
The plain program's result is the specification. Its result is three [16, 2048, 1024] arrays laid side by side on the
lane axis: the input itself; the sum over the row axis (from the initial value 0) divided by 2048 and repeated on every
row; the hidden row repeated on every row. A lane of the result picks one of the three by its range, and each is read at
an index one operation at a time.
-/

noncomputable section

open Idealize.ShloMosaic Idealize.ShloMosaic.ValueIdx

namespace Cert.ReferenceIdeal.RefValue

open Cert.ReferenceIdeal Cert.ReferenceIdeal.Gen Cert.ReferenceIdeal.Read Cert.Tiles

variable (x0 x1 : (⟨S16x512, .f32⟩ : BufTy).Contents (Elt Ideal)) (x2 : (⟨S16x2048x1024, .f32⟩ : BufTy).Contents (Elt Ideal))

/-- The three arrays laid side by side. -/
abbrev parts : List ((s : Shape) × (s.Idx → Elt Ideal .f32)) :=
  [⟨S16x2048x1024, x2⟩, ⟨S16x2048x1024, val_main_v5 (F := Ideal) x2⟩, ⟨S16x2048x1024, val_main_v7 (F := Ideal) x0 x1⟩]

/-- Off the joined axis the piece's index has the result index's coordinates. -/
theorem off_axis (b : Fin 16) (r : Fin 2048) (l : Fin 1024) (q : Fin 3072) (hr : S16x2048x1024.rank = S16x2048x3072.rank)
    (a : Fin S16x2048x1024.rank) (ha : a.cast hr ≠ (2 : Fin 3)) :
    ((ix3 b r l : S16x2048x1024.Idx) a).val = ((ix3 b r q : S16x2048x3072.Idx) (a.cast hr)).val := by
  match a with
  | ⟨0, _⟩ => rfl
  | ⟨1, _⟩ => rfl
  | ⟨2, _⟩ => exact absurd (Fin.ext rfl) ha

/-- The first 1024 lanes are the input. -/
theorem part_a (b : Fin 16) (r : Fin 2048) (l : Fin 1024) :
    val_main_v8 (F := Ideal) x0 x1 x2 (ix3 b r (lane0 l)) = x2 (ix3 b r l) := by
  unfold val_main_v8
  exact concatenate_apply_piece (t := S16x2048x3072) (2 : Fin 3) (parts x0 x1 x2) _ (ix3 b r (lane0 l)) 0 (by exact Nat.succ_pos 2) S16x2048x1024 x2 rfl rfl 0 rfl
    (ix3 b r l) (off_axis b r l (lane0 l) rfl) (Nat.zero_add _)

/-- The next 1024 lanes are the mean over the rows. -/
theorem part_b (b : Fin 16) (r : Fin 2048) (l : Fin 1024) :
    val_main_v8 (F := Ideal) x0 x1 x2 (ix3 b r (lane1 l)) = Spec.mean x2 b l := by
  unfold val_main_v8
  refine (concatenate_apply_piece (t := S16x2048x3072) (2 : Fin 3) (parts x0 x1 x2) _ (ix3 b r (lane1 l)) 1 (by exact Nat.succ_lt_succ (Nat.succ_pos 1)) S16x2048x1024
    (val_main_v5 (F := Ideal) x2) rfl rfl 1024 rfl (ix3 b r l) (off_axis b r l (lane1 l) rfl) rfl).trans ?_
  rw [val_main_v5_apply, val_main_v4_apply, val_main_v2_apply, val_main_v3_apply, val_main_cst_0_apply, val_main_v1_apply,
    val_main_cst_apply]
  simp only [Ideal.hostDivf_def, Ideal.ofBits_def]
  rw [Spec.div_2048, Ideal.ofBits_zero_f32, zero_add]
  unfold Spec.mean
  refine congrArg (· * (((1 / 2048 : ℝ) : EReal))) (Finset.sum_congr rfl fun k _ => congrArg x2 (funext fun a => Fin.ext ?_))
  match a with
  | ⟨0, _⟩ => rfl
  | ⟨1, _⟩ => rfl
  | ⟨2, _⟩ => rfl

/-- The last 1024 lanes are the hidden row. -/
theorem part_h (b : Fin 16) (r : Fin 2048) (l : Fin 1024) :
    val_main_v8 (F := Ideal) x0 x1 x2 (ix3 b r (lane2 l)) = val_main_v6 (F := Ideal) x0 x1 (ix3 b 0 l) := by
  unfold val_main_v8
  refine (concatenate_apply_piece (t := S16x2048x3072) (2 : Fin 3) (parts x0 x1 x2) _ (ix3 b r (lane2 l)) 2 (by exact Nat.lt_succ_self 2) S16x2048x1024
    (val_main_v7 (F := Ideal) x0 x1) rfl rfl 2048 rfl (ix3 b r l) (off_axis b r l (lane2 l) rfl) rfl).trans ?_
  rw [val_main_v7_apply]
  refine congrArg (val_main_v6 (F := Ideal) x0 x1) (funext fun a => Fin.ext ?_)
  match a with
  | ⟨0, _⟩ => rfl
  | ⟨1, _⟩ => rfl
  | ⟨2, _⟩ => rfl

/-- The plain program's result is the specification of the hidden row array and the input. -/
theorem result_eq : val_main_v8 (F := Ideal) x0 x1 x2 = Spec.G (val_main_v6 (F := Ideal) x0 x1) x2 := by
  funext i
  obtain ⟨b, r, q, rfl⟩ : ∃ (b : Fin 16) (r : Fin 2048) (q : Fin 3072), i = (ix3 b r q : S16x2048x3072.Idx) :=
    ⟨i 0, i 1, i 2, eq_ix3 (n0 := 16) (n1 := 2048) (n2 := 3072) i⟩
  rcases lane_cases q with ⟨l, rfl⟩ | ⟨l, rfl⟩ | ⟨l, rfl⟩
  · rw [Spec.G_tile0]; exact part_a x0 x1 x2 b r l
  · rw [Spec.G_tile1]; exact part_b x0 x1 x2 b r l
  · rw [Spec.G_tile2]; exact part_h x0 x1 x2 b r l

end Cert.ReferenceIdeal.RefValue

end
-- ==== Proof.lean ====
/-
  The pipelined program and the plain program compute one array over the extended reals.

  The result, of shape [16, 2048, 3072], is at (b, r, q): the input X (b, r, q) for a lane q below 1024; the mean over
  the 2048 rows k of X (b, k, q - 1024) for 1024 ≤ q < 2048; the hidden feature H (b, q - 2048) from lane 2048 on, H
  the two hidden inputs side by side (Proof/Spec.lean states it as one function G of the arrays).

  The pipelined program walks a 16 × 4 grid, batch by batch and within a batch row tile by row tile. On the first row
  tile of a batch it sums the batch's 2048 rows, multiplies by the float 2^-11 and keeps that row in a scratch buffer;
  on every row tile it writes the tile's 512 input rows, the scratch row and the hidden row into the three lane ranges
  of its output block. The scratch row seen on the later row tiles is the one the first row tile of the same batch
  left (induction along the grid order, Proof/Whole.lean), so every block written back is a block of G, and the 64
  blocks cover the array.

  The plain program divides the same sum (taken from the initial value 0) by the float 2048. Both floats are exact
  powers of two and division by a nonzero real is multiplication by its reciprocal on every extended real, so the two
  means agree for all inputs: the finiteness precondition is not used.

  The three frames are the generated ones (the plain program's is its generated run with the result dropped), and
  the idealization rewrote nothing.
-/
import proofs.«134692_j42958262895310_2_alg».proof.Defs
import proofs.«134692_j42958262895310_2_alg».proof.Proof.Gen.Kernel
import proofs.«134692_j42958262895310_2_alg».proof.Proof.Gen.Kernel.Skeleton
import proofs.«134692_j42958262895310_2_alg».proof.Proof.Gen.Kernel.Launch
import proofs.«134692_j42958262895310_2_alg».proof.Proof.Gen.Kernel.Points
import proofs.«134692_j42958262895310_2_alg».proof.Proof.Gen.Kernel.Frame
import proofs.«134692_j42958262895310_2_alg».proof.Proof.Gen.KernelIdeal
import proofs.«134692_j42958262895310_2_alg».proof.Proof.Gen.KernelIdeal.Skeleton
import proofs.«134692_j42958262895310_2_alg».proof.Proof.Gen.KernelIdeal.Launch
import proofs.«134692_j42958262895310_2_alg».proof.Proof.Gen.KernelIdeal.Points
import proofs.«134692_j42958262895310_2_alg».proof.Proof.Gen.KernelIdeal.Frame
import proofs.«134692_j42958262895310_2_alg».proof.Proof.Gen.ReferenceIdeal
import proofs.«134692_j42958262895310_2_alg».proof.Proof.Gen.Pre_finite_inputs
import proofs.«134692_j42958262895310_2_alg».proof.Proof.Gen.KernelIdeal.Value
import proofs.«134692_j42958262895310_2_alg».proof.Proof.Gen.ReferenceIdeal.Run
import proofs.«134692_j42958262895310_2_alg».proof.Proof.Gen.ReferenceIdeal.Read
import proofs.«134692_j42958262895310_2_alg».proof.Proof.Whole
import proofs.«134692_j42958262895310_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The plain program's run keeps its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at G of the same hidden row array and the same input. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
